-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x3200000 32) (main_arg2 : FVec F S128x64 .f32) (main_arg3 : FVec F S64 .f32) (main_arg4 : IVec S8192x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S3300000x64 : Shape := ⟨2, ![3300000, 64]⟩
abbrev S1x64 : Shape := ⟨2, ![1, 64]⟩
abbrev S8192x2x1 : Shape := ⟨3, ![8192, 2, 1]⟩
abbrev S8192x2x64 : Shape := ⟨3, ![8192, 2, 64]⟩

abbrev nBuf : Space → Nat
  | .hbm => 49
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S8192x2, .i32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x64, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000x64, .f32⟩
  | .hbm, ⟨30, _⟩ => ⟨S_, .f32⟩
  | .hbm, ⟨31, _⟩ => ⟨S100000x64, .f32⟩
  | .hbm, ⟨32, _⟩ => ⟨S3300000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S8192x2, .i32⟩
  | .hbm, ⟨42, _⟩ => ⟨S8192x2, .i1⟩
  | .hbm, ⟨43, _⟩ => ⟨S_, .i32⟩
  | .hbm, ⟨44, _⟩ => ⟨S8192x2, .i32⟩
  | .hbm, ⟨45, _⟩ => ⟨S8192x2, .i32⟩
  | .hbm, ⟨46, _⟩ => ⟨S8192x2, .i32⟩
  | .hbm, ⟨47, _⟩ => ⟨S8192x2x1, .i32⟩
  | .hbm, ⟨48, _⟩ => ⟨S8192x2x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  scatter_S100000_S3300000x1_S3300000_n_0_0_1_wf : ScatterDims.WF S100000 S3300000x1 S3300000 [] [0] [0] 1
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S8192x2x1_S8192x2x64_2_0_n_n_0_2_164_wf : GatherDims.WF S100000x64 S8192x2x1 S8192x2x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S8192x2x1_S8192x2x64_2_0_n_n_0_2_164 : GatherDims S100000x64 S8192x2x1 S8192x2x64 where
  offsetDims := [2]
  collapsedSliceDims := [0]
  operandBatchingDims := []
  startIndicesBatchingDims := []
  startIndexMap := [0]
  indexVectorDim := 2
  sliceSizes := ![1, 64]
  wf := gather_S100000x64_S8192x2x1_S8192x2x64_2_0_n_n_0_2_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S8192x2x1 : Shape := ⟨3, ![8192, 2, 1]⟩
abbrev S8192x2x64 : Shape := ⟨3, ![8192, 2, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S8192x2, .i32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S3300000, .i32⟩
  | .hbm, ⟨21, _⟩ => ⟨S3300000, .i1⟩
  | .hbm, ⟨22, _⟩ => ⟨S_, .i32⟩
  | .hbm, ⟨23, _⟩ => ⟨S3300000, .i32⟩
  | .hbm, ⟨24, _⟩ => ⟨S3300000, .i32⟩
  | .hbm, ⟨25, _⟩ => ⟨S3300000, .i32⟩
  | .hbm, ⟨26, _⟩ => ⟨S3300000x1, .i32⟩
  | .hbm, ⟨27, _⟩ => ⟨S3300000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S100000x64, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000x64, .f32⟩
  | .hbm, ⟨48, _⟩ => ⟨S3300000x1, .f32⟩
  | .hbm, ⟨49, _⟩ => ⟨S3300000x64, .f32⟩
  | .hbm, ⟨50, _⟩ => ⟨S3300000x64, .f32⟩
  | .hbm, ⟨51, _⟩ => ⟨S_, .f32⟩
  | .hbm, ⟨52, _⟩ => ⟨S100000x64, .f32⟩
  | .hbm, ⟨53, _⟩ => ⟨S3300000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S8192x2, .i32⟩
  | .hbm, ⟨60, _⟩ => ⟨S8192x2, .i1⟩
  | .hbm, ⟨61, _⟩ => ⟨S_, .i32⟩
  | .hbm, ⟨62, _⟩ => ⟨S8192x2, .i32⟩
  | .hbm, ⟨63, _⟩ => ⟨S8192x2, .i32⟩
  | .hbm, ⟨64, _⟩ => ⟨S8192x2, .i32⟩
  | .hbm, ⟨65, _⟩ => ⟨S8192x2x1, .i32⟩
  | .hbm, ⟨66, _⟩ => ⟨S8192x2x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S8192x2x1_S8192x2x64_2_0_n_n_0_2_164_wf : GatherDims.WF S100000x64 S8192x2x1 S8192x2x64 [2] [0] [] [0] [] 2 ![1, 64]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S8192x2x1_S8192x2x64_2_0_n_n_0_2_164 : GatherDims S100000x64 S8192x2x1 S8192x2x64 where
  offsetDims := [2]
  collapsedSliceDims := [0]
  operandBatchingDims := []
  startIndicesBatchingDims := []
  startIndexMap := [0]
  indexVectorDim := 2
  sliceSizes := ![1, 64]
  wf := gather_S100000x64_S8192x2x1_S8192x2x64_2_0_n_n_0_2_164_wf

class Facts : Prop extends Facts₀ where

variable [Facts]
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelBlock.lean ====
/-
The kernel body's one store, read at an entry of its block.

At a grid point the body loads a block of features `x0 : [10000, 128]`, the whole weight matrix `x1 : [128, 64]` and a
block of the inverse-square-root degree column `x2 : [10000, 1]`, and stores `(x0 · x1) ⊙ x2`: the matrix product
accumulated into zero, each row `p` scaled by the column's entry `x2[p, 0]` (the column re-cast to its own shape and
broadcast along the 64 lanes). At the ideal values the changes of float format before the product are the identity, so
the stored entry at `(p, q)` is `(∑ k, x0[p, k] · x1[k, q]) · x2[p, 0]`.
-/
import proofs.«140885_j16801912062662_2_alg».proof.Proof.Gen.KernelIdeal.Skeleton
import proofs.«140885_j16801912062662_2_alg».proof.Proof.LibMatmulSum
import proofs.«140885_j16801912062662_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-- The four coordinate facts of the body's product: the left operand is read at (output row, contraction index), the
    right at (contraction index, output column). -/
theorem lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem lhs_contr (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_contr (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- THE STORED BLOCK AT `(p, q)`: the row-by-column sum of the loaded feature block and the weights, times the loaded
    degree column's entry of row `p`. -/
theorem stored_apply (x0 : Vec Ideal S10000x128 .f32) (x1 : Vec Ideal S128x64 .f32) (x2 : Vec Ideal S10000x1 .f32)
    (p : Fin 10000) (q : Fin 64) :
    k0_pay1 (F := Ideal) x0 x1 x2 (ix2 p q)
      = (∑ k : Fin 128, x0 (ix2 p k) * x1 (ix2 k q)) * x2 (ix2 p (0 : Fin 1)) := by
  unfold k0_pay1
  refine (mulf_apply _ _ (ix2 p q)).trans ?_
  refine congrArg₂ (· * ·) ?_ ?_
  · -- the product into a zero accumulator is the plain sum; the operands' change of format is the identity
    exact Cert.GraphConv.matmul_zero_sum (R := 10000) (K := 128) (N := 64)
      dot_S10000x128_S128x64_S10000x64_1_0_0_1_n_n none rfl rfl lhs_row lhs_contr rhs_contr rhs_col
      (truncf (F := Ideal) .bf16 x0 bitsLt_bf16_f32) (truncf (F := Ideal) .bf16 x1 bitsLt_bf16_f32) (ix2 p q)
  · -- the column, cast to its own shape, broadcast along the lanes
    refine (Cert.LibKeepdims.broadcastTo_a1_ab_apply _ broadcasts_S10000x1_S10000x64 p q).trans ?_
    rw [shapeCast_self]

end Cert.KernelIdeal.Block

end
-- ==== Proof.KernelArray.lean ====
/-
From the blocks a grid point writes back to the whole output array of the region.

The region's output array `[100000, 64]` is tiled by ten row blocks `[10000, 64]`; grid point `t` writes back block
`t`. Its inputs are the feature block of the same ten thousand rows, the whole weight matrix, and the same rows of the
degree column. So what point `t` writes is block `t` of ONE function of the three arrays the region finds,

  scaledProduct a0 a1 a2 (v, c) = (∑ k, a0[v, k] · a1[k, c]) · a2[v, 0],

and, the ten blocks covering the array, the array ends holding that function.
-/
import proofs.«140885_j16801912062662_2_alg».proof.Proof.Gen.KernelIdeal.Frame
import proofs.«140885_j16801912062662_2_alg».proof.Proof.KernelBlock
import Idealize.ShloMosaic.Lib.Pipeline.Value
import Idealize.ShloMosaic.Lib.ValueIdx

set_option maxRecDepth 16384

noncomputable section

open scoped BigOperators

namespace Cert.KernelIdeal.Array

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The region's result as one function of the three arrays it reads: the features times the weights, row `v` scaled
    by the column's entry of row `v`. -/
def scaledProduct (a0 : S100000x128.Idx → EReal) (a1 : S128x64.Idx → EReal) (a2 : S100000x1.Idx → EReal) :
    S100000x64.Idx → EReal :=
  fun i => (∑ k : Fin 128, a0 (ix2 (i 0) k) * a1 (ix2 k (i 1))) * a2 (ix2 (i 0) (0 : Fin 1))

theorem scaledProduct_apply (a0 : S100000x128.Idx → EReal) (a1 : S128x64.Idx → EReal) (a2 : S100000x1.Idx → EReal)
    (v : Fin 100000) (c : Fin 64) :
    scaledProduct a0 a1 a2 (ix2 v c) = (∑ k : Fin 128, a0 (ix2 v k) * a1 (ix2 k c)) * a2 (ix2 v (0 : Fin 1)) := rfl

theorem origin : (![0, 0] : Fin 2 → Nat) = fun _ => 0 := funext fun a => by fin_cases a <;> rfl

/-- The printed index maps, decided over the ten points: the feature block and the column block are the output
    block's rows, every other block coordinate is 0, and the output's row block index is at most 9. -/
theorem block_indices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Every row block is some point's. -/
theorem block_onto : ∀ (q0 : Fin 10), ∃ t : Fin cfg0.N, win0_3.index t = ![q0.val, 0] :=
  (by decide +kernel : ∀ (q0 : Fin 10), ∃ t : Fin grid0.N, win0_3.index t = ![q0.val, 0])

/-- THE PER-POINT FACT, for ANY three arrays: the body's store computed from their blocks at point `t` is block `t` of
    `scaledProduct` of the arrays. (Stated over variables, so that nothing about where the arrays come from is opened.) -/
theorem point_eq (a0 : S100000x128.Idx → EReal) (a1 : S128x64.Idx → EReal) (a2 : S100000x1.Idx → EReal)
    (t : Fin cfg0.N) :
    (cfg0.win 3).cut (grid0.coords t)
        (k0_pay1 (F := Ideal) (((cfg0.win 0).blk t).view.read (Elt Ideal) a0)
          (((cfg0.win 1).blk t).view.read (Elt Ideal) a1) (((cfg0.win 2).blk t).view.read (Elt Ideal) a2))
      = ((cfg0.win 3).blk t).view.read (Elt Ideal) (scaledProduct a0 a1 a2) := by
  obtain ⟨e0, e1, e2, e3, e4, e5, e6, e7⟩ := block_indices t
  funext j
  obtain ⟨p, q, rfl⟩ : ∃ (p : Fin 10000) (q : Fin 64), j = ix2 p q := ⟨j 0, j 1, eq_ix2 j⟩
  show k0_pay1 (F := Ideal) (((cfg0.win 0).blk t).view.read (Elt Ideal) a0)
      (((cfg0.win 1).blk t).view.read (Elt Ideal) a1) (((cfg0.win 2).blk t).view.read (Elt Ideal) a2) (ix2 p q)
    = scaledProduct a0 a1 a2 (((cfg0.win 3).blk t).view.emb (ix2 p q))
  refine (Block.stored_apply _ _ _ p q).trans ?_
  -- each input block is its array read where the output's rectangle says
  have h0 : ∀ k : Fin 128, ((cfg0.win 0).blk t).view.emb (ix2 p k)
      = ix2 ((((cfg0.win 3).blk t).view.emb (ix2 p q)) 0) k := by
    intro k
    funext a; apply Fin.ext
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 128 + 1 * k.val = k.val
      omega
  have h1 : ∀ k : Fin 128, ((cfg0.win 1).blk t).view.emb (ix2 k q)
      = ix2 k ((((cfg0.win 3).blk t).view.emb (ix2 p q)) 1) := by
    intro k
    funext a; apply Fin.ext
    match a with
    | ⟨0, _⟩ =>
      show win0_1.index t (0 : Fin 2) * 128 + 1 * k.val = k.val
      omega
    | ⟨1, _⟩ =>
      show win0_1.index t (1 : Fin 2) * 64 + 1 * q.val = win0_3.index t (1 : Fin 2) * 64 + 1 * q.val
      omega
  have h2 : ((cfg0.win 2).blk t).view.emb (ix2 p (0 : Fin 1))
      = ix2 ((((cfg0.win 3).blk t).view.emb (ix2 p q)) 0) (0 : Fin 1) := by
    funext a; apply Fin.ext
    match a with
    | ⟨0, _⟩ =>
      show win0_2.index t (0 : Fin 2) * 10000 + 1 * p.val = win0_3.index t (0 : Fin 2) * 10000 + 1 * p.val
      omega
    | ⟨1, _⟩ =>
      show win0_2.index t (1 : Fin 2) * 1 + 1 * 0 = 0
      omega
  show (∑ k : Fin 128, a0 (((cfg0.win 0).blk t).view.emb (ix2 p k)) * a1 (((cfg0.win 1).blk t).view.emb (ix2 k q)))
      * a2 (((cfg0.win 2).blk t).view.emb (ix2 p (0 : Fin 1))) = _
  rw [h2, Finset.sum_congr rfl (fun k _ => by rw [h0 k, h1 k])]
  rfl

/-- WHAT POINT `t` WRITES BACK is block `t` of `scaledProduct` of the arrays as the region finds them. -/
theorem flushed_eq (c : Dev nD) (t : Fin cfg0.N) :
    (dats m 0 c).flushed 3 t
      = ((cfg0.win 3).blk t).view.read (Elt Ideal)
          (scaledProduct (V m c main_arg0) (V m c main_arg2) (V m c main_v12)) := by
  show (cfg0.win 3).cut (grid0.coords t) ((dats m 0 c).after 3 t) = _
  rw [after0_3]
  unfold out0_3
  rw [View.canon_unit_zero origin]
  simp only [View.ld_unit_zero (S := S10000x128) origin, View.ld_unit_zero (S := S128x64) origin,
    View.ld_unit_zero (S := S10000x1) origin]
  unfold iblk
  exact point_eq (V m c (Pipeline.arrRef spec0 0)) (V m c (Pipeline.arrRef spec0 1)) (V m c (Pipeline.arrRef spec0 2)) t

/-- An index of the array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

/-- The ten blocks cover the array: row `r` is in the block of the point whose row block index is `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE OUTPUT ARRAY after the region: `scaledProduct` of the arrays the region finds. -/
theorem final (c : Dev nD) :
    (dats m 0 c).arrAt 3 cfg0.N = scaledProduct (V m c main_arg0) (V m c main_arg2) (V m c main_v12) :=
  (dats m 0 c).arrAt_eq_of_cover 3 _ (fun t _ => flushed_eq m c t) covered

end Cert.KernelIdeal.Array

end
-- ==== Proof.KernelRun.lean ====
/-
The idealized kernel program's run, read: its result array as one term of its argument arrays.

The program computes, on the host, the edge ids with self-loops `src = [edge_index[0] | 0 … N−1]`,
`dst = [edge_index[1] | 0 … N−1]`, the degree `deg = segment_sum(1, dst)` and `dinv = deg^(-1/2)`; the region then
leaves `hs = (features · W) ⊙ dinv` (row `v` scaled by `dinv v`: `Array.scaledProduct`); and the host lines after the
region gather the source rows of `hs` (ids wrapped when negative, clamped by the gather), scatter-add them by target
id, scale row `v` by `dinv v` again, add the bias row, and gather the rows the batch asks for. Each host stage is read
off the run by the composed term of its operations; the region's array is the closed form of `Array.final`.
-/
import proofs.«140885_j16801912062662_2_alg».proof.Proof.Gen.KernelIdeal.Frame
import proofs.«140885_j16801912062662_2_alg».proof.Proof.KernelArray
import Idealize.ShloMosaic.Lib.StableHlo.Run
import Idealize.ShloMosaic.Lib.Pipeline.Value
import Idealize.ShloMosaic.PureOps.Ideal

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.Array
open Idealize.ShloMosaic.Pipeline (Dat)

/-! ## The stages, named -/

/-- The source ids with self-loops: row 0 of the edge list, then `0, 1, …, N − 1`. -/
def srcIds (x1 : S2x3200000.Idx → BitVec 32) : S3300000.Idx → BitVec 32 :=
  concatenate S3300000 0 [⟨S3200000, shapeCast _ (extractStridedSlice S1x3200000 ![0, 0] x1 slices_S2x3200000_S1x3200000_0_0) shapeCasts_S1x3200000_S3200000⟩, ⟨S100000, iotaInDim S100000 32 0⟩] concatenates_S3200000_S100000_S3300000_d0

/-- The target ids with self-loops: row 1 of the edge list, then `0, 1, …, N − 1`. -/
def dstIds (x1 : S2x3200000.Idx → BitVec 32) : S3300000.Idx → BitVec 32 :=
  concatenate S3300000 0 [⟨S3200000, shapeCast _ (extractStridedSlice S1x3200000 ![1, 0] x1 slices_S2x3200000_S1x3200000_1_0) shapeCasts_S1x3200000_S3200000⟩, ⟨S100000, iotaInDim S100000 32 0⟩] concatenates_S3200000_S100000_S3300000_d0

/-- The inverse square root of the degree: the degree is the segment sum of ones by target id. -/
def invSqrtDeg (x1 : S2x3200000.Idx → BitVec 32) : S100000.Idx → EReal :=
  Host.rsqrt (F := Ideal) (Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 (dstIds x1))
    (broadcastInDim S3300000 ![] bcast_S_S3300000 (constant (F := Ideal) S_ .f32 0x3F800000#32)))

/-- The degree weights as the column the region reads. -/
def invSqrtDegCol (x1 : S2x3200000.Idx → BitVec 32) : S100000x1.Idx → EReal :=
  shapeCast S100000x1 (invSqrtDeg x1) shapeCasts_S100000_S100000x1

/-- The host lines after the region, up to the bias: gather the source rows of `A`, scatter-add by target id, scale
    row `v` by `dinv v`, add the bias row. -/
def layer (A : S100000x64.Idx → EReal) (dinv : S100000.Idx → EReal) (src dst : S3300000.Idx → BitVec 32)
    (x3 : S64.Idx → EReal) : S100000x64.Idx → EReal :=
  addf (F := Ideal)
    (mulf (F := Ideal)
      (broadcastInDim S100000x64 ![0, 1] bcast_S100000x1_S100000x64_0_1 (broadcastInDim S100000x1 ![0] bcast_S100000_S100000x1_0 dinv))
      (Host.scatterAdd (F := Ideal) scatter_S100000x64_S3300000x1_S3300000x64_1_0_0_1
        (broadcastInDim S100000x64 ![] bcast_S_S100000x64 (constant (F := Ideal) S_ .f32 0x00000000#32))
        (broadcastInDim S3300000x1 ![0] bcast_S3300000_S3300000x1_0 dst)
        (Host.gather gather_S100000x64_S3300000x1_S3300000x64_1_0_n_n_0_1_164 A
          (broadcastInDim S3300000x1 ![0] bcast_S3300000_S3300000x1_0
            (select (cmpi .slt src (broadcastInDim S3300000 ![] bcast_S_S3300000 (constantI S_ 32 0#32)))
              (addi src (broadcastInDim S3300000 ![] bcast_S_S3300000 (constantI S_ 32 100000#32))) src)))))
    (broadcastInDim S100000x64 ![0, 1] bcast_S1x64_S100000x64_0_1 (broadcastInDim S1x64 ![1] bcast_S64_S1x64_1 x3))

/-- The last line: the rows the batch asks for (ids wrapped when negative, clamped by the gather). -/
def pick (L : S100000x64.Idx → EReal) (x4 : S8192x2.Idx → BitVec 32) : S8192x2x64.Idx → EReal :=
  Host.gather gather_S100000x64_S8192x2x1_S8192x2x64_2_0_n_n_0_2_164 L
    (broadcastInDim S8192x2x1 ![0, 1] bcast_S8192x2_S8192x2x1_0_1
      (select (cmpi .slt x4 (broadcastInDim S8192x2 ![] bcast_S_S8192x2 (constantI S_ 32 0#32)))
        (addi x4 (broadcastInDim S8192x2 ![] bcast_S_S8192x2 (constantI S_ 32 100000#32))) x4))

/-- THE PROGRAM'S RESULT as one term of its five argument arrays. -/
def result (x0 : S100000x128.Idx → EReal) (x1 : S2x3200000.Idx → BitVec 32) (x2 : S128x64.Idx → EReal)
    (x3 : S64.Idx → EReal) (x4 : S8192x2.Idx → BitVec 32) : S8192x2x64.Idx → EReal :=
  pick (layer (scaledProduct x0 x2 (invSqrtDegCol x1)) (invSqrtDeg x1) (srcIds x1) (dstIds x1) x3) x4

variable (m : (ℓ : Loc nD τ sig) → Buf (Elt Ideal) ℓ) (ρ : Dev nD → PrngReg)

/-! ## The host stages before the region -/

theorem before_src (c : Dev nD) :
    (V0 m c (Proc.devRef .tc main_v3) : S3300000.Idx → BitVec 32) = srcIds (m ((c.tc : Thread nD τ).loc main_arg1)) := by
  show StableHlo.after hostOps0 (fun b => m (c, b)) (Proc.devRef .tc main_v3) = _
  after_results
  rfl

theorem before_dst (c : Dev nD) :
    (V0 m c (Proc.devRef .tc main_v6) : S3300000.Idx → BitVec 32) = dstIds (m ((c.tc : Thread nD τ).loc main_arg1)) := by
  show StableHlo.after hostOps0 (fun b => m (c, b)) (Proc.devRef .tc main_v6) = _
  after_results
  rfl

theorem before_dinv (c : Dev nD) :
    (V0 m c (Proc.devRef .tc main_v11) : S100000.Idx → EReal) = invSqrtDeg (m ((c.tc : Thread nD τ).loc main_arg1)) := by
  show StableHlo.after hostOps0 (fun b => m (c, b)) (Proc.devRef .tc main_v11) = _
  after_results
  rfl

theorem before_dinvCol (c : Dev nD) :
    (V m c main_v12 : S100000x1.Idx → EReal) = invSqrtDegCol (m ((c.tc : Thread nD τ).loc main_arg1)) := by
  show StableHlo.after hostOps0 (fun b => m (c, b)) (Proc.devRef .tc main_v12) = _
  after_results
  rfl

/-! ## The host lines after the region -/

set_option maxHeartbeats 1600000 in
/-- The tail's result: the region's array is `scaledProduct` of the arguments and the degree column, every other
    buffer the tail reads is as the lines before the region left it. -/
theorem tail_eq (c : Dev nD) :
    (Pipeline.afterTail₀ cfgs (dats m) 0 (V0 m) [hostOps1] c main_v36 : S8192x2x64.Idx → EReal)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have h13 : (Pipeline.withArrays (cfgs 0).spec c (V0 m c) (fun w => (dats m 0 c).arrAt w (cfgs 0).N)
      (Proc.devRef .tc main_v13) : S100000x64.Idx → EReal)
      = scaledProduct (m ((c.tc : Thread nD τ).loc main_arg0)) (m ((c.tc : Thread nD τ).loc main_arg2))
          (invSqrtDegCol (m ((c.tc : Thread nD τ).loc main_arg1))) := by
    refine (Pipeline.withArrays_arr spec0 launch0.win.arr_inj c (V0 m c) _ 3).trans ?_
    refine (final m c).trans ?_
    rw [V_main_arg0, V_main_arg2, before_dinvCol]
  unfold Pipeline.afterTail₀
  simp only [List.flatten_cons, List.flatten_nil, List.append_nil]
  after_results
  rw [h13,
    Pipeline.withArrays_of_ne _ c (V0 m c) _ main_v11 (by exact (by decide : ∀ w, Pipeline.arrRef spec0 w ≠ main_v11)),
    Pipeline.withArrays_of_ne _ c (V0 m c) _ main_v6 (by exact (by decide : ∀ w, Pipeline.arrRef spec0 w ≠ main_v6)),
    Pipeline.withArrays_of_ne _ c (V0 m c) _ main_v3 (by exact (by decide : ∀ w, Pipeline.arrRef spec0 w ≠ main_v3)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    before_dinv, before_dst, before_src]
  rw [show V0 m c (Proc.devRef .tc main_arg3) = m ((c.tc : Thread nD τ).loc main_arg3) from V_main_arg3 m c,
    show V0 m c (Proc.devRef .tc main_arg4) = m ((c.tc : Thread nD τ).loc main_arg4) from V_main_arg4 m c]
  rfl

/-! ## The run, read -/

/-- Every weakly fair execution of the idealized kernel program terminates with its result at `result` of the
    arguments, and the arguments unchanged. -/
theorem run : θ_run defs (onTc (τ := τ) (main (F := Ideal))) ⟨m, fun _ => 0, ρ⟩ fun r => ∀ c : Dev nD,
      r.2.mem ((c.tc : Thread nD τ).loc main_v36)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.LibGraphHop.lean ====
/-
One graph-propagation step as a host program computes it, read at an entry.

A host program propagates features `h : [N, C]` along `E` edges given as two integer columns `rows, cols : [E, 1]`
(source and target ids): it gathers the source rows `h[rows]`, which reads each id signed and clamps it into
`[0, N − 1]`, and scatter-adds them into `N` zero rows by the target ids, which reads each id signed and drops an id
outside `[0, N)`. The weights enter in one of two ways: per node, by scaling the rows by a column `d : [N, 1]` before the
gather and again after the scatter-add; or per edge, by scaling the gathered rows by a column `nrm : [E, 1]`. This file
gives each of the two at the extended reals in closed form at an entry `(v, c)`: a sum over the edges whose target id is
`v`.
-/
import proofs.«140885_j16801912062662_2_alg».proof.Proof.LibRowScatter
import Idealize.ShloMosaic.Lib.ValueIdx
import Idealize.ShloMosaic.Lib.Pipeline.Value
import Idealize.ShloMosaic.PureOps.Ideal

noncomputable section

open scoped BigOperators

namespace Cert.LibGraphHop

open Idealize.ShloMosaic Idealize.ShloMosaic.ValueIdx Idealize.ShloMosaic.RowScatter

variable {N E C : Nat}

/-- The node an edge reads: its source id, read signed and clamped into `[0, N − 1]`. -/
def srcRow (hN : 0 < N) (rows : IVec ⟨2, ![E, 1]⟩ 32) (e : Fin E) : Fin N :=
  ⟨min (rows (ix2 e (0 : Fin 1))).toInt.toNat (N - 1), by omega⟩

/-- A column `[N, 1]` broadcast along the rows of `[N, C]`, read at `(v, c)`, is the column's entry at `v`. -/
theorem bcast_rows_apply {α : Type}
    (hB : (⟨2, ![N, 1]⟩ : Shape).BroadcastsInDim ⟨2, ![N, C]⟩ (![0, 1] : Fin 2 → Fin 2))
    (d : (⟨2, ![N, 1]⟩ : Shape).Idx → α) (v : Fin N) (c : Fin C) :
    broadcastInDim ⟨2, ![N, C]⟩ ![0, 1] hB d (ix2 v c) = d (ix2 v (0 : Fin 1)) := by
  refine broadcastInDim_apply _ hB d (ix2 v c) (ix2 v (0 : Fin 1)) (fun a => ?_)
  match a with
  | ⟨0, _⟩ =>
    -- the row axis: of extent `N`; when `N = 1` the only row is row 0
    show v.val = if N = 1 then 0 else v.val
    by_cases h1 : N = 1
    · rw [if_pos h1]
      have := v.isLt
      omega
    · rw [if_neg h1]
  | ⟨1, _⟩ =>
    -- the column axis: of extent one, read at 0
    show (0 : Nat) = if (1 : Nat) = 1 then 0 else c.val
    rw [if_pos rfl]

/-- ONE STEP WITH THE WEIGHTS ON THE NODES, READ AT `(v, c)`: scale the rows by `d`, gather the source rows, scatter-add
    them by target id into zero rows, scale by `d` again. The entry is `d v` times the sum, over the edges whose target
    id is `v`, of `d` times `h` at the edge's source node. -/
theorem nodeHop_apply (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hB : (⟨2, ![N, 1]⟩ : Shape).BroadcastsInDim ⟨2, ![N, C]⟩ (![0, 1] : Fin 2 → Fin 2))
    (d : FVec Ideal ⟨2, ![N, 1]⟩ .f32) (rows cols : IVec ⟨2, ![E, 1]⟩ 32)
    (zeros : FVec Ideal ⟨2, ![N, C]⟩ .f32) (hz : ∀ i, zeros i = 0) (h : FVec Ideal ⟨2, ![N, C]⟩ .f32)
    (v : Fin N) (c : Fin C) :
    mulf (broadcastInDim ⟨2, ![N, C]⟩ ![0, 1] hB d)
        (Host.scatterAdd (rowScatterDims N E C swf) zeros cols
          (Host.gather (rowGatherDims N E C gwf) (mulf (broadcastInDim ⟨2, ![N, C]⟩ ![0, 1] hB d) h) rows)) (ix2 v c)
      = d (ix2 v (0 : Fin 1)) * ∑ e : Fin E, if (cols (ix2 e (0 : Fin 1))).toInt = (v.val : Int)
          then d (ix2 (srcRow hN rows e) (0 : Fin 1)) * h (ix2 (srcRow hN rows e) c) else 0 := by
  rw [mulf_apply, bcast_rows_apply]
  show _ * Ideal.hostScatterAdd (rowScatterDims N E C swf) zeros cols _ (ix2 v c) = _
  rw [rowScatterAdd_apply, hz, zero_add]
  congr 1
  refine Finset.sum_congr rfl fun e _ => ?_
  refine if_congr Iff.rfl ?_ rfl
  rw [rowGather_apply hN, mulf_apply, bcast_rows_apply]
  rfl

/-- ONE STEP WITH THE WEIGHTS ON THE EDGES, READ AT `(v, c)`: gather the source rows, scale edge `e`'s row by `nrm e`,
    scatter-add by target id into zero rows. The entry is the sum, over the edges whose target id is `v`, of `nrm e`
    times `h` at the edge's source node. -/
theorem edgeHop_apply (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hBe : (⟨2, ![E, 1]⟩ : Shape).BroadcastsInDim ⟨2, ![E, C]⟩ (![0, 1] : Fin 2 → Fin 2))
    (nrm : FVec Ideal ⟨2, ![E, 1]⟩ .f32) (rows cols : IVec ⟨2, ![E, 1]⟩ 32)
    (zeros : FVec Ideal ⟨2, ![N, C]⟩ .f32) (hz : ∀ i, zeros i = 0) (h : FVec Ideal ⟨2, ![N, C]⟩ .f32)
    (v : Fin N) (c : Fin C) :
    Host.scatterAdd (rowScatterDims N E C swf) zeros cols
        (mulf (broadcastInDim ⟨2, ![E, C]⟩ ![0, 1] hBe nrm) (Host.gather (rowGatherDims N E C gwf) h rows)) (ix2 v c)
      = ∑ e : Fin E, if (cols (ix2 e (0 : Fin 1))).toInt = (v.val : Int)
          then nrm (ix2 e (0 : Fin 1)) * h (ix2 (srcRow hN rows e) c) else 0 := by
  show Ideal.hostScatterAdd (rowScatterDims N E C swf) zeros cols _ (ix2 v c) = _
  rw [rowScatterAdd_apply, hz, zero_add]
  refine Finset.sum_congr rfl fun e _ => ?_
  refine if_congr Iff.rfl ?_ rfl
  rw [mulf_apply, bcast_rows_apply, rowGather_apply hN]
  rfl

end Cert.LibGraphHop

end
-- ==== Proof.LibERealScale.lean ====
/- General lemmas about scaling a finite sum of extended reals.

   On the extended reals multiplication does not distribute over addition in general (the sum of plus and minus infinity
   is minus infinity), but a FINITE NONNEGATIVE real scalar does distribute over any sum, whatever the terms.  So such a
   scalar moves across a finite sum: a mean is the sum of the terms divided one by one, and a weight folded into each
   tile's partial sum is the weight applied to the whole sum.  Nothing here mentions a program. -/
import Mathlib.Data.EReal.Inv
import Mathlib.Algebra.BigOperators.Group.Finset.Basic

namespace ERealScale

/-- A finite nonnegative real scalar distributes over a finite sum of extended reals. -/
theorem coe_mul_sum {ι : Type*} {k : ℝ} (hk : 0 ≤ k) (s : Finset ι) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (EReal.coe_nonneg.mpr hk) (EReal.coe_ne_top k), ih]

/-- The same with the scalar on the right. -/
theorem sum_mul_coe {ι : Type*} {k : ℝ} (hk : 0 ≤ k) (s : Finset ι) (f : ι → EReal) :
    (∑ i ∈ s, f i) * (k : EReal) = ∑ i ∈ s, f i * (k : EReal) := by
  rw [mul_comm, coe_mul_sum hk]
  exact Finset.sum_congr rfl fun i _ => mul_comm _ _

end ERealScale
-- ==== Proof.LibGcnFold.lean ====
/-
The two ways of weighting one normalised graph-convolution step agree.

A normalised graph convolution propagates features `h : [N, C]` along `E` edges (source ids `rows`, target ids `cols`) with
node weights `d v = deg(v)^(-1/2)`. The weights can sit on the nodes: scale row `v` of `h` by `d v`, gather the source rows,
scatter-add them by target id into zero rows, and scale row `v` of the result by `d v` again. Or they can sit on the
edges: gather the source rows of `h`, scale edge `e`'s row by `nrm e = d (source e) · d (target e)`, and scatter-add by
target id. At an entry `(v, c)` both are a sum over the edges whose target id is `v`, and on such an edge
`nrm e = d (source e) · d v`, so the claim is

  `d v · Σ_e (h (source e, c) · d (source e)) = Σ_e h (source e, c) · (d (source e) · d v)`.

The weight `d v` is a finite nonnegative real, and such a scalar distributes over a finite sum of extended reals whatever
the terms are; the rest is commutativity and associativity of multiplication on the extended reals. Nothing is assumed
about the features: they may be infinite.
-/
import proofs.«140885_j16801912062662_2_alg».proof.Proof.LibGraphHop
import proofs.«140885_j16801912062662_2_alg».proof.Proof.LibERealScale
import Idealize.ShloMosaic.Lib.ValueIdx
import Idealize.ShloMosaic.Lib.Pipeline.Value
import Idealize.ShloMosaic.PureOps.Ideal

noncomputable section

open scoped BigOperators

namespace Cert.LibGcnFold

open Idealize.ShloMosaic Idealize.ShloMosaic.ValueIdx Idealize.ShloMosaic.RowScatter Cert.LibGraphHop

variable {N E C : Nat}

/-- THE NODE-WEIGHTED AND THE EDGE-WEIGHTED STEP AGREE. Let the node weights `d` be finite nonnegative reals, let the
    edge weight `nrm e` be `d (source e) · d v` on every edge whose target id is the node `v`, and let `hs` be `h` with
    row `v` scaled by `d v`. Then gathering the source rows of `hs`, scatter-adding them by target id into zero rows and
    scaling row `v` by `d v` gives the same matrix as gathering the source rows of `h`, scaling edge `e`'s row by
    `nrm e` and scatter-adding by target id. The entries of `h` are arbitrary extended reals. -/
theorem fold_eq (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hB : (⟨2, ![N, 1]⟩ : Shape).BroadcastsInDim ⟨2, ![N, C]⟩ (![0, 1] : Fin 2 → Fin 2))
    (hBe : (⟨2, ![E, 1]⟩ : Shape).BroadcastsInDim ⟨2, ![E, C]⟩ (![0, 1] : Fin 2 → Fin 2))
    (d : FVec Ideal ⟨2, ![N, 1]⟩ .f32)
    (hd : ∀ v : Fin N, ∃ r : ℝ, 0 ≤ r ∧ d (ix2 v (0 : Fin 1)) = ((r : ℝ) : EReal))
    (nrm : FVec Ideal ⟨2, ![E, 1]⟩ .f32) (rows cols : IVec ⟨2, ![E, 1]⟩ 32)
    (hnrm : ∀ (e : Fin E) (v : Fin N), (cols (ix2 e (0 : Fin 1))).toInt = (v.val : Int) →
        nrm (ix2 e (0 : Fin 1)) = d (ix2 (srcRow hN rows e) (0 : Fin 1)) * d (ix2 v (0 : Fin 1)))
    (zeros : FVec Ideal ⟨2, ![N, C]⟩ .f32) (hz : ∀ i, zeros i = 0)
    (h hs : FVec Ideal ⟨2, ![N, C]⟩ .f32)
    (hhs : ∀ (v : Fin N) (c : Fin C), hs (ix2 v c) = h (ix2 v c) * d (ix2 v (0 : Fin 1))) :
    mulf (broadcastInDim ⟨2, ![N, C]⟩ ![0, 1] hB d)
        (Host.scatterAdd (rowScatterDims N E C swf) zeros cols (Host.gather (rowGatherDims N E C gwf) hs rows))
      = Host.scatterAdd (rowScatterDims N E C swf) zeros cols
          (mulf (Host.gather (rowGatherDims N E C gwf) h rows) (broadcastInDim ⟨2, ![E, C]⟩ ![0, 1] hBe nrm)) := by
  funext i
  obtain ⟨v, c, rfl⟩ : ∃ (v : Fin N) (c : Fin C), i = ix2 v c := ⟨i 0, i 1, eq_ix2 i⟩
  -- both sides at `(v, c)`: a sum over the edges whose target id is `v`
  rw [mulf_apply, bcast_rows_apply]
  show _ * Ideal.hostScatterAdd (rowScatterDims N E C swf) zeros cols _ (ix2 v c)
    = Ideal.hostScatterAdd (rowScatterDims N E C swf) zeros cols _ (ix2 v c)
  rw [rowScatterAdd_apply, rowScatterAdd_apply, hz, zero_add, zero_add]
  -- the finite nonnegative weight `d v` goes inside the sum
  obtain ⟨r, hr0, hr⟩ := hd v
  rw [hr, ERealScale.coe_mul_sum hr0, ← hr]
  refine Finset.sum_congr rfl fun e _ => ?_
  by_cases hl : (cols (ix2 e (0 : Fin 1))).toInt = (v.val : Int)
  · -- an edge that lands on `v`: its weight is `d (source e) · d v`
    rw [if_pos hl, if_pos hl, rowGather_apply hN, mulf_apply, bcast_rows_apply, rowGather_apply hN, hnrm e v hl]
    show d (ix2 v (0 : Fin 1)) * hs (ix2 (srcRow hN rows e) c)
      = h (ix2 (srcRow hN rows e) c) * (d (ix2 (srcRow hN rows e) (0 : Fin 1)) * d (ix2 v (0 : Fin 1)))
    rw [hhs]
    ac_rfl
  · -- an edge that lands elsewhere contributes nothing on either side
    rw [if_neg hl, if_neg hl, mul_zero]

end Cert.LibGcnFold

end
-- ==== Proof.LibSelfLoopDegree.lean ====
/-
The inverse square root of a degree that counts a self-loop is a nonnegative real number.

A degree vector `deg : [N]` is a segment sum of ones: a `stablehlo.scatter` with an add body of `ones : [E]` into
`zeros : [N]` by integer ids read through a column `[E, 1]`, with update_window_dims `[]`, inserted_window_dims `[0]`,
scatter_dims_to_operand_dims `[0]` and index_vector_dim 1. Update element `e` lands on operand element `idx[e, 0]`,
read as a signed integer and not clamped; an id outside `[0, N)` lands nowhere. So `deg v` is 0 plus one 1 for every
edge whose id is `v`: the number of such edges, a natural number. When at least one edge has id `v` (a self-loop at
`v` is one) that number is positive, and the inverse square root of a positive real `d` at the extended reals is the
nonnegative real `(√d)⁻¹` (only 0, the negatives and the infinities give something else).
-/
import Idealize.ShloMosaic.Lib.ValueIdx
import Idealize.ShloMosaic.PureOps.Ideal

noncomputable section

open scoped BigOperators

namespace Cert.LibSelfLoopDegree

open Idealize.ShloMosaic Idealize.ShloMosaic.ValueIdx

/-! ## Where an update element lands -/

/-- The dimension numbers of a scatter of single elements: operand `[N]`, scatter indices `[E, 1]`, updates `[E]`:
    the one operand axis is the inserted, indexed one, there is no window axis, an update is one element. Their
    conditions `wf` are a parameter, so that any record with these fields is an instance whatever its proof. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the one operand axis the window starts at the update element's id `idx[j₀, 0]`, read signed and not clamped. -/
theorem vecScatter_start {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: the window has no extent there. -/
theorem vecScatter_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg]
  intro h
  have h' : (0 : Fin 1) ∉ ([0] : List (Fin 1)) := by
    simpa [ScatterDims.sKept, Shape.kept, List.mem_filter] using h
  exact h' (List.mem_singleton.mpr rfl)

/-- WHERE AN UPDATE ELEMENT LANDS: update element `e` whose id `idx[e, 0]`, read signed, is the operand position `n`
    lands on operand element `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) (h : (idx (ix2 e (0 : Fin 1))).toInt = (n.val : Int)) :
    (vecScatterDims N E wf).resultIdx? (ix1 e) idx = some (ix1 n) := by
  have hst : (vecScatterDims N E wf).start (ix1 e) idx 0 = (n.val : Int) := by
    rw [vecScatter_start wf idx (ix1 e)]
    exact h
  have hall : ∀ a : Fin 1, 0 ≤ (vecScatterDims N E wf).start (ix1 e) idx a + (vecScatterDims N E wf).window (ix1 e) a
      ∧ (vecScatterDims N E wf).start (ix1 e) idx a + (vecScatterDims N E wf).window (ix1 e) a
        < (⟨1, ![N]⟩ : Shape).size a := by
    intro a
    obtain rfl : a = 0 := Subsingleton.elim _ _
    show 0 ≤ (vecScatterDims N E wf).start (ix1 e) idx 0 + (vecScatterDims N E wf).window (ix1 e) 0
      ∧ (vecScatterDims N E wf).start (ix1 e) idx 0 + (vecScatterDims N E wf).window (ix1 e) 0 < (N : Int)
    rw [hst, vecScatter_window]
    have := n.isLt
    omega
  unfold ScatterDims.resultIdx?
  rw [dif_pos hall]
  congr 1
  funext a
  obtain rfl : a = 0 := Subsingleton.elim _ _
  refine Fin.ext ?_
  show ((vecScatterDims N E wf).start (ix1 e) idx 0 + (vecScatterDims N E wf).window (ix1 e) 0).toNat = n.val
  rw [hst, vecScatter_window]
  omega

/-! ## A sum of ones is a count -/

/-- A finite sum of terms each equal to 1 is the number of terms, a natural number read as a real. -/
theorem sum_ones_eq_card {ι : Type*} (t : Finset ι) (f : ι → EReal) (hf : ∀ j ∈ t, f j = 1) :
    ∑ j ∈ t, f j = (((t.card : ℕ) : ℝ) : EReal) := by
  classical
  induction t using Finset.induction_on with
  | empty => simp
  | insert a t ha ih =>
    rw [Finset.sum_insert ha, hf a (Finset.mem_insert_self a t), ih fun j hj => hf j (Finset.mem_insert_of_mem hj),
      Finset.card_insert_of_notMem ha, Nat.cast_succ, add_comm ((t.card : ℕ) : ℝ) 1, EReal.coe_add, EReal.coe_one]

/-! ## The inverse square root of a degree with a self-loop -/

/-- THE INVERSE SQUARE ROOT OF A POSITIVE COUNT IS A NONNEGATIVE REAL: with `deg` the scatter-add of ones into zeros
    by the ids `idx[·, 0]`, and at least one edge whose id, read signed, is `v`, the degree `deg v` is a positive
    natural number and its inverse square root is the nonnegative real `(√deg v)⁻¹`. -/
theorem invSqrtDegree_nonneg {N E w : Nat} (wf : ScatterDims.WF ⟨1, ![N]⟩ ⟨2, ![E, 1]⟩ ⟨1, ![E]⟩ [] [0] [0] 1)
    (zeros : FVec Ideal ⟨1, ![N]⟩ .f32) (idx : IVec ⟨2, ![E, 1]⟩ w) (ones : FVec Ideal ⟨1, ![E]⟩ .f32)
    (hz : ∀ i, zeros i = 0) (ho : ∀ j, ones j = 1) (v : Fin N)
    (hv : ∃ e : Fin E, (idx (ix2 e (0 : Fin 1))).toInt = (v.val : Int)) :
    ∃ r : ℝ, 0 ≤ r ∧ Host.rsqrt (Host.scatterAdd (vecScatterDims N E wf) zeros idx ones) (ix1 v) = ((r : ℝ) : EReal) := by
  obtain ⟨e, he⟩ := hv
  -- at an index the two host operations are the scalar inverse square root of the exact scatter sum
  show ∃ r : ℝ, 0 ≤ r ∧ Ideal.rsqrt (Ideal.hostScatterAdd (vecScatterDims N E wf) zeros idx ones (ix1 v)) = ((r : ℝ) : EReal)
  unfold Ideal.hostScatterAdd
  -- the degree is the number of updates that land on v
  rw [hz (ix1 v), zero_add, sum_ones_eq_card _ ones (fun j _ => ho j)]
  -- that number is positive: the update e lands on v
  have hmem : ix1 e ∈ Finset.univ.filter (fun j => (vecScatterDims N E wf).resultIdx? j idx = some (ix1 v)) :=
    Finset.mem_filter.mpr ⟨Finset.mem_univ _, vecScatter_lands wf idx e v he⟩
  have hpos : (0 : ℝ) < ((Finset.univ.filter
      (fun j => (vecScatterDims N E wf).resultIdx? j idx = some (ix1 v))).card : ℝ) :=
    Nat.cast_pos.mpr (Finset.card_pos.mpr ⟨_, hmem⟩)
  rw [Ideal.rsqrt_coe, if_neg (not_lt.2 hpos.le), if_neg hpos.ne']
  exact ⟨_, inv_nonneg.mpr (Real.sqrt_nonneg _), rfl⟩

end Cert.LibSelfLoopDegree

end
-- ==== Proof.LibWrapIndex.lean ====
/-
Wrapping a negative index, then reading it as a column: an index that is already in range is left alone.

Indexing an array of `N = 50000` rows by signed 32-bit ids first wraps a negative id: `wrapped := if id < 0 then id + N
else id`, elementwise over `ids : [E]`; the wrapped ids are then read as a column `[E, 1]` and a gather clamps each one
into `[0, N − 1]`. This file says that an id whose signed value is a node number `n < N` passes through all three steps
unchanged: the signed comparison of a non-negative word with 0 is false, so the select keeps the id; the column at
`(e, 0)` is the vector at `e`; and the clamp of `n < N` is `n`.
-/
import Idealize.ShloMosaic.Lib.ValueIdx
import Idealize.ShloMosaic.Lib.Affine
import Idealize.ShloMosaic.Lib.Pipeline.Value
import Idealize.ShloMosaic.PureOps.Ideal

noncomputable section

namespace Cert.LibWrapIndex

open Idealize.ShloMosaic Idealize.ShloMosaic.ValueIdx

/-- THE SCALAR STEP: a word whose signed value is non-negative is not below 0, so "add `k` when negative" keeps it. -/
theorem wrap_word_of_nonneg (a k : BitVec 32) (h : 0 ≤ a.toInt) :
    Scalar.select (IntOp.cmpi .slt a (0#32)) (IntOp.addi a k) a = a := by
  have hc : IntOp.cmpi .slt a (0#32) = 0#1 := by
    apply eq_zero_of_ne_one
    rw [IntOp.cmpi_slt]
    have h0 : (0#32 : BitVec 32).toInt = 0 := by decide
    rw [h0]
    omega
  rw [hc, select_zero]

/-- THE WRAP AT AN INDEX: an id whose signed value is a node number `n < 50000` is left alone by the wrap. -/
theorem wrapped_of_node {E : Nat} (hB0 : (⟨0, ![]⟩ : Shape).BroadcastsInDim ⟨1, ![E]⟩ (![] : Fin 0 → Fin 1))
    (ids : IVec ⟨1, ![E]⟩ 32) (e : Fin E) (n : Nat) (hn : n < 50000) (h : (ids (ix1 e)).toInt = (n : Int)) :
    select (cmpi .slt ids (broadcastInDim ⟨1, ![E]⟩ ![] hB0 (constantI (⟨0, ![]⟩ : Shape) 32 0#32)))
        (addi ids (broadcastInDim ⟨1, ![E]⟩ ![] hB0 (constantI (⟨0, ![]⟩ : Shape) 32 50000#32))) ids (ix1 e)
      = ids (ix1 e) := by
  -- at an index each elementwise operation is the scalar one, and a broadcast scalar constant reads its word
  show Scalar.select (IntOp.cmpi .slt (ids (ix1 e)) (0#32)) (IntOp.addi (ids (ix1 e)) (50000#32)) (ids (ix1 e))
    = ids (ix1 e)
  exact wrap_word_of_nonneg _ _ (by rw [h]; exact Int.natCast_nonneg n)

/-- THE CLAMP: a word whose signed value is a node number `n < 50000` clamps into `[0, 50000 − 1]` to `n`. -/
theorem clamp_of_node (a : BitVec 32) (n : Nat) (hn : n < 50000) (h : a.toInt = (n : Int)) :
    min a.toInt.toNat (50000 - 1) = n := by
  rw [h]
  omega

/-- THE COLUMN: a vector `[E]` read as a column `[E, 1]` has at `(e, 0)` the vector's element `e`. -/
theorem column_apply {E w : Nat}
    (hB1 : (⟨1, ![E]⟩ : Shape).BroadcastsInDim ⟨2, ![E, 1]⟩ (![0] : Fin 1 → Fin 2))
    (ids : IVec ⟨1, ![E]⟩ w) (e : Fin E) :
    broadcastInDim ⟨2, ![E, 1]⟩ ![0] hB1 ids (ix2 e (0 : Fin 1)) = ids (ix1 e) := by
  refine broadcastInDim_apply ![0] hB1 ids (ix2 e (0 : Fin 1)) (ix1 e) fun a => ?_
  obtain rfl : a = 0 := Subsingleton.elim _ _
  show e.val = if E = 1 then 0 else e.val
  split
  · have := e.isLt; omega
  · rfl

end Cert.LibWrapIndex

end
-- ==== Proof.LibSelfLoopIds.lean ====
/-
The edge ids of a graph with self-loops: where the self-loop of a node sits and what its id is.

The ids are the vector `[a | 0, 1, …, N − 1] : [E]`, `E = A + N`: a two-piece concatenation of `A` arbitrary 32-bit ids and the
iota of length `N`. Three facts. (1) A vector `[E]` read as a column `[E, 1]` has at `(e, 0)` the vector's element `e`,
whatever the element type. (2) Position `A + v` of the concatenation falls in the second piece at `v`, where the iota
holds the word of `v`; since `v < N < 2³¹` that word's signed value is `v`. (3) An id whose signed value is a node number
`v < N` is not negative, so the negative-index wrap "add `k` when below 0" keeps it, and the clamp `min(·, N − 1)` of
`v < N` is `v`.
-/
import Idealize.ShloMosaic.Lib.ValueIdx
import Idealize.ShloMosaic.Lib.Pipeline.Value
import Idealize.ShloMosaic.PureOps.Ideal
import proofs.«140885_j16801912062662_2_alg».proof.Proof.LibWrapIndex

noncomputable section

namespace Cert.LibSelfLoopIds

open Idealize.ShloMosaic Idealize.ShloMosaic.ValueIdx

/-- THE COLUMN: a vector `[E]` of any element type read as a column `[E, 1]` has at `(e, 0)` the vector's element `e`. -/
theorem col_apply {α : Type} {E : Nat}
    (hB1 : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] hB1 x (ix2 e (0 : Fin 1)) = x (ix1 e) := by
  refine broadcastInDim_apply ![0] hB1 x (ix2 e (0 : Fin 1)) (ix1 e) fun a => ?_
  obtain rfl : a = 0 := Subsingleton.elim _ _
  -- the one operand axis goes to the column's axis 0; when it has size 1 its only coordinate is 0 anyway
  show e.val = if E = 1 then 0 else e.val
  split
  · have := e.isLt; omega
  · rfl

/-- A 32-bit word of a natural number below `2³¹` has that number as its signed value. -/
theorem toInt_ofNat_of_lt (n : Nat) (hn : n < 2 ^ 31) : (BitVec.ofNat 32 n).toInt = (n : Int) := by
  have h31 : (2 : Nat) ^ 31 = 2147483648 := by norm_num
  have h32 : (2 : Nat) ^ 32 = 4294967296 := by norm_num
  have hmod : n % 2 ^ 32 = n := Nat.mod_eq_of_lt (by omega)
  rw [BitVec.toInt_eq_toNat_cond, BitVec.toNat_ofNat, hmod, if_pos (by omega)]

/-- THE SELF-LOOP'S ID: position `A + v` of `[a | 0, 1, …, N − 1]` holds a word whose signed value is `v`. -/
theorem selfLoop_id {A N E : Nat} (hE : A + N = E) (hN : N < 2 ^ 31)
    (hC : Shape.Concatenates [(⟨1, ![A]⟩ : Shape), ⟨1, ![N]⟩] ⟨1, ![E]⟩ (0 : Fin 1))
    (a : IVec ⟨1, ![A]⟩ 32) (v : Fin N) :
    (concatenate ⟨1, ![E]⟩ 0 [⟨⟨1, ![A]⟩, a⟩, ⟨⟨1, ![N]⟩, iotaInDim ⟨1, ![N]⟩ 32 0⟩] hC
        (ix1 (⟨A + v.val, by omega⟩ : Fin E))).toInt = (v.val : Int) := by
  -- the position is at or past the first piece's extent A, so it reads the second piece at v
  have hcat : concatenate ⟨1, ![E]⟩ 0 [⟨⟨1, ![A]⟩, a⟩, ⟨⟨1, ![N]⟩, iotaInDim ⟨1, ![N]⟩ 32 0⟩] hC
      (ix1 (⟨A + v.val, by omega⟩ : Fin E)) = iotaInDim ⟨1, ![N]⟩ 32 0 (ix1 v) := by
    refine concatenate_pair_apply_right (t := ⟨1, ![E]⟩) (s₁ := ⟨1, ![A]⟩) (s₂ := ⟨1, ![N]⟩) (0 : Fin 1) a (iotaInDim ⟨1, ![N]⟩ 32 0) hC _ rfl rfl (ix1 v) ?_ ?_
    · intro b hb
      exact absurd (Subsingleton.elim _ _) hb
    · show v.val + A = A + v.val
      omega
  rw [hcat]
  -- the iota at v is the word of v
  show (BitVec.ofNat 32 v.val).toInt = (v.val : Int)
  exact toInt_ofNat_of_lt v.val (by have := v.isLt; omega)

/-- AN ID THAT LANDS ON A NODE PASSES THE WRAP AND THE CLAMP: if the ids' column at `(e, 0)` has signed value a node
    number `v < N`, then the column of the wrapped ids `if id < 0 then id + k else id` at `(e, 0)`, clamped into
    `[0, N − 1]`, is `v`. -/
theorem wrapped_clamped_of_lands {N E : Nat}
    (hB0 : (⟨0, ![]⟩ : Shape).BroadcastsInDim ⟨1, ![E]⟩ (![] : Fin 0 → Fin 1))
    (hB1 : (⟨1, ![E]⟩ : Shape).BroadcastsInDim ⟨2, ![E, 1]⟩ (![0] : Fin 1 → Fin 2))
    (ids : IVec ⟨1, ![E]⟩ 32) (k : BitVec 32) (e : Fin E) (v : Fin N)
    (h : (broadcastInDim ⟨2, ![E, 1]⟩ ![0] hB1 ids (ix2 e (0 : Fin 1))).toInt = (v.val : Int)) :
    min ((broadcastInDim ⟨2, ![E, 1]⟩ ![0] hB1
            (select (cmpi .slt ids (broadcastInDim ⟨1, ![E]⟩ ![] hB0 (constantI (⟨0, ![]⟩ : Shape) 32 0#32)))
                    (addi ids (broadcastInDim ⟨1, ![E]⟩ ![] hB0 (constantI (⟨0, ![]⟩ : Shape) 32 k))) ids))
          (ix2 e (0 : Fin 1))).toInt.toNat (N - 1) = v.val := by
  -- both columns at (e, 0) are their vectors at e
  rw [col_apply hB1 ids e] at h
  rw [col_apply hB1 _ e]
  -- at an index each elementwise operation is the scalar one, and a broadcast scalar constant reads its word
  show min (Scalar.select (IntOp.cmpi .slt (ids (ix1 e)) (0#32)) (IntOp.addi (ids (ix1 e)) k) (ids (ix1 e))).toInt.toNat
    (N - 1) = v.val
  rw [Cert.LibWrapIndex.wrap_word_of_nonneg _ _ (by rw [h]; exact Int.natCast_nonneg _), h]
  have := v.isLt
  omega

end Cert.LibSelfLoopIds

end
-- ==== Proof.LibVecGather.lean ====
/-
Gather of a vector at an integer vector, read at an index; and a scatter-add of real numbers is a real number.

`x[idx]` of a vector `x : [N]` at an integer vector `idx : [E]` is a `stablehlo.gather` with offset_dims `[]`,
collapsed_slice_dims `[0]`, start_index_map `[0]`, index_vector_dim 1 and slice_sizes `[1]` over the indices as
`[E, 1]`, with result `[E]`. Result element `e` is `x` at the start index `idx[e, 0]`, read as a signed integer and
clamped into `[0, N − 1]`.

An accumulating scatter at the extended reals gives, at each operand index, the operand element plus a finite sum of
update elements. When the operand element and every update element are real numbers (neither `+∞` nor `−∞`), so is
the result: a finite sum of real numbers is a real number.
-/
import Idealize.ShloMosaic.Lib.ValueIdx
import Idealize.ShloMosaic.PureOps.Ideal

noncomputable section

open scoped BigOperators

namespace Cert.LibVecGather

open Idealize.ShloMosaic Idealize.ShloMosaic.ValueIdx

/-! ## Vector gather -/

section Gather
variable {α : Type}

/-- The dimension numbers of a gather of single elements for an operand `[N]`, start indices `[E, 1]` and result
    `[E]`: the one operand axis is collapsed and indexed, there is no offset axis, a slice is one element. Their
    conditions `wf` are a parameter, so that any record with these fields is an instance whatever its proof. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  -- the one operand axis: collapsed, so no offset; not a batching axis; its start is the clamped index
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## A scatter-add of real numbers is a real number -/

section Scatter

/-- A finite sum of extended reals each of which is a real number is a real number. -/
theorem sum_real {ι : Type*} (t : Finset ι) (f : ι → EReal) (hf : ∀ j ∈ t, ∃ r : ℝ, f j = ((r : ℝ) : EReal)) :
    ∃ r : ℝ, ∑ j ∈ t, f j = ((r : ℝ) : EReal) := by
  classical
  induction t using Finset.induction_on with
  | empty => exact ⟨0, by simp⟩
  | insert a t ha ih =>
    obtain ⟨ra, hra⟩ := hf a (Finset.mem_insert_self a t)
    obtain ⟨rt, hrt⟩ := ih fun j hj => hf j (Finset.mem_insert_of_mem hj)
    refine ⟨ra + rt, ?_⟩
    rw [Finset.sum_insert ha, hra, hrt, EReal.coe_add]

/-- THE ACCUMULATING SCATTER KEEPS REAL NUMBERS REAL: for any dimension numbers, at an operand index whose element is
    a real number, and with every update element a real number, the result element is a real number. -/
theorem hostScatterAdd_real {s si su : Shape} (D : ScatterDims s si su) {w : Nat} (x : s.Idx → EReal) (idx : IVec si w)
    (upd : su.Idx → EReal) (i : s.Idx) (hx : ∃ r : ℝ, x i = ((r : ℝ) : EReal))
    (hupd : ∀ j, ∃ r : ℝ, upd j = ((r : ℝ) : EReal)) :
    ∃ r : ℝ, Ideal.hostScatterAdd D x idx upd i = ((r : ℝ) : EReal) := by
  unfold Ideal.hostScatterAdd
  obtain ⟨rx, hrx⟩ := hx
  obtain ⟨rs, hrs⟩ := sum_real (Finset.univ.filter (fun j => D.resultIdx? j idx = some i)) upd (fun j _ => hupd j)
  exact ⟨rx + rs, by rw [hrx, hrs, EReal.coe_add]⟩

end Scatter

end Cert.LibVecGather

end
-- ==== Proof.LibInvSqrtDegree.lean ====
/-
The inverse square root of a degree vector is a vector of real numbers.

The normalisation vector of a graph convolution is `dis := if deg > 0 then 1 / √deg else 0`, elementwise, where `deg`
is a scatter-add of ones into zeros (the number of edges arriving at each node). At the extended reals `1 / √d` of a
positive real `d` is the real `(√d)⁻¹` (only `d = 0`, the infinities and the negatives give something else, and the
select does not read the quotient there); so when every `deg i` is a real number every `dis i` is one. A scatter-add of
the real 1 into the real 0 is a real number at every index, which gives the corollary for the degree vector itself.

Also here: the f32 words of 0 and of 1, and a scalar constant broadcast to any shape read at an index.
-/
import Idealize.ShloMosaic.PureOps.Ideal
import Idealize.ShloMosaic.Lib.ValueIdx
import proofs.«140885_j16801912062662_2_alg».proof.Proof.LibVecGather

noncomputable section

namespace Cert.LibInvSqrtDegree

open Idealize.ShloMosaic Idealize.ShloMosaic.ValueIdx

/-! ## Words and broadcast constants -/

/-- The f32 word `0x00000000` denotes 0. -/
theorem zero_word : Ideal.ofBits .f32 0x00000000#32 = (0 : EReal) := by simp [Ideal.ofBits, Ideal.ieee]

/-- The f32 word `0x3F800000` denotes 1. -/
theorem one_word : Ideal.ofBits .f32 0x3F800000#32 = (1 : EReal) := by
  simp [Ideal.ofBits, Ideal.ieee, -EReal.coe_mul]; norm_num

/-- A scalar constant broadcast to any shape reads, at every index, the extended real its word denotes. -/
theorem broadcast_const_apply {s : Shape} (hB : (⟨0, ![]⟩ : Shape).BroadcastsInDim s (![] : Fin 0 → Fin s.rank))
    (w : BitVec 32) (i : s.Idx) :
    broadcastInDim s ![] hB (constant (F := Ideal) (⟨0, ![]⟩ : Shape) .f32 w) i = Ideal.ofBits .f32 w := rfl

/-! ## The inverse square root under the select -/

/-- THE SCALAR STEP: for a real number `d`, "`1 / √d` when `d > 0`, else 0" is a real number: when the comparison's bit
    is 1, `d` is a positive real and its inverse square root is the real `(√d)⁻¹`; otherwise the value is 0. -/
theorem invSqrt_word_real (d z : EReal) (hd : ∃ r : ℝ, d = ((r : ℝ) : EReal)) (hz : z = 0) :
    ∃ r : ℝ, Scalar.select (Ideal.cmp .ogt d z) (Ideal.rsqrt d) z = ((r : ℝ) : EReal) := by
  obtain ⟨r, rfl⟩ := hd
  subst hz
  by_cases hpos : (0 : ℝ) < r
  · have hlt : (0 : EReal) < ((r : ℝ) : EReal) := by exact_mod_cast hpos
    have hc : Ideal.cmp .ogt ((r : ℝ) : EReal) 0 = 1#1 := by simp [Ideal.cmp, hlt]
    rw [hc, select_one, Ideal.rsqrt_coe, if_neg (not_lt.2 hpos.le), if_neg hpos.ne']
    exact ⟨_, rfl⟩
  · have hlt : ¬ (0 : EReal) < ((r : ℝ) : EReal) := by exact_mod_cast hpos
    have hc : Ideal.cmp .ogt ((r : ℝ) : EReal) 0 = 0#1 := by simp [Ideal.cmp, hlt]
    rw [hc, select_zero]
    exact ⟨0, EReal.coe_zero.symm⟩

/-- THE INVERSE SQUARE ROOT OF A REAL VECTOR IS REAL: with every `deg i` a real number and `zeros` the zero vector,
    `select (deg > zeros) (rsqrt deg) zeros` is a real number at every index. -/
theorem invSqrt_real {s : Shape} (deg zeros : FVec Ideal s .f32) (hdeg : ∀ i, ∃ r : ℝ, deg i = ((r : ℝ) : EReal))
    (hz : ∀ i, zeros i = 0) :
    ∀ i, ∃ r : ℝ, select (cmpf (F := Ideal) .ogt deg zeros) (Host.rsqrt deg) zeros i = ((r : ℝ) : EReal) := by
  intro i
  -- at an index each elementwise operation is the scalar one
  show ∃ r : ℝ, Scalar.select (Ideal.cmp .ogt (deg i) (zeros i)) (Ideal.rsqrt (deg i)) (zeros i) = ((r : ℝ) : EReal)
  exact invSqrt_word_real (deg i) (zeros i) (hdeg i) (hz i)

/-- A scatter-add of ones into zeros is a real number at every index. -/
theorem degree_real {s si su : Shape} (D : ScatterDims s si su) {w : Nat} (zeros : FVec Ideal s .f32) (idx : IVec si w)
    (ones : FVec Ideal su .f32) (hz : ∀ i, zeros i = 0) (ho : ∀ j, ones j = 1) :
    ∀ i, ∃ r : ℝ, Host.scatterAdd D zeros idx ones i = ((r : ℝ) : EReal) := fun i =>
  Cert.LibVecGather.hostScatterAdd_real D zeros idx ones i ⟨0, by rw [hz i]; exact EReal.coe_zero.symm⟩
    fun j => ⟨1, by rw [ho j]; exact EReal.coe_one.symm⟩

/-- THE COROLLARY FOR A DEGREE VECTOR: with `deg` the scatter-add of ones into zeros, the inverse square root under the
    select is a real number at every index. -/
theorem invSqrtDegree_real {s si su : Shape} (D : ScatterDims s si su) {w : Nat} (zeros : FVec Ideal s .f32)
    (idx : IVec si w) (ones : FVec Ideal su .f32) (hz : ∀ i, zeros i = 0) (ho : ∀ j, ones j = 1) :
    ∀ i, ∃ r : ℝ, select (cmpf (F := Ideal) .ogt (Host.scatterAdd D zeros idx ones) zeros)
      (Host.rsqrt (Host.scatterAdd D zeros idx ones)) zeros i = ((r : ℝ) : EReal) :=
  invSqrt_real (Host.scatterAdd D zeros idx ones) zeros (degree_real D zeros idx ones hz ho) hz

end Cert.LibInvSqrtDegree

end
-- ==== Proof.Bridge.lean ====
/-
The kernel program's result is the reference's.

Both programs build the same edge ids with self-loops, the same degree `deg = segment_sum(1, dst)` and the same
`dinv = deg^(-1/2)`, and both end by adding the bias row and gathering the rows the batch asks for. They differ in ONE
stage. The reference weighs the edges: `Σ_{e → v} h[src e] · (dinv[src e] · dinv[dst e])` with `h = features · W`. The
kernel weighs the nodes: `dinv[v] · Σ_{e → v} (h ⊙ dinv)[src e]`. An edge that lands on `v` has `dst e = v`, an id in
range, which the negative-index wrap and the gather's clamp leave alone, so `dinv[dst e] = dinv[v]`; and every node
has its self-loop, so `deg v ≥ 1` and `dinv v` is a finite nonnegative real, which distributes over the sum whatever
the features are (`LibGcnFold.fold_eq`). The features and weights may be any extended reals: the precondition is not used.
-/
import proofs.«140885_j16801912062662_2_alg».proof.Proof.KernelRun
import proofs.«140885_j16801912062662_2_alg».proof.Proof.Gen.ReferenceIdeal.Read
import proofs.«140885_j16801912062662_2_alg».proof.Proof.LibGcnFold
import proofs.«140885_j16801912062662_2_alg».proof.Proof.LibSelfLoopDegree
import proofs.«140885_j16801912062662_2_alg».proof.Proof.LibSelfLoopIds
import proofs.«140885_j16801912062662_2_alg».proof.Proof.LibVecGather
import proofs.«140885_j16801912062662_2_alg».proof.Proof.LibKeepdims
import proofs.«140885_j16801912062662_2_alg».proof.Proof.LibInvSqrtDegree
import proofs.«140885_j16801912062662_2_alg».proof.Proof.LibGraphHop
import Idealize.ShloMosaic.Lib.ValueIdx
import Idealize.ShloMosaic.Lib.Pipeline.Value
import Idealize.ShloMosaic.PureOps.Ideal.Laws

set_option maxRecDepth 16384

noncomputable section

open scoped BigOperators

namespace Cert.Bridge

open Idealize.ShloMosaic Idealize.ShloMosaic.ValueIdx
open Cert.KernelIdeal.Run Cert.KernelIdeal.Array Cert.ReferenceIdeal.Read

/-! ## The stages the two programs share -/

theorem src_eq (x1 : Cert.KernelIdeal.S2x3200000.Idx → BitVec 32) : srcIds x1 = val_main_v3 (F := Ideal) x1 := rfl
theorem dst_eq (x1 : Cert.KernelIdeal.S2x3200000.Idx → BitVec 32) : dstIds x1 = val_main_v6 (F := Ideal) x1 := rfl
theorem dinv_eq (x1 : Cert.KernelIdeal.S2x3200000.Idx → BitVec 32) : invSqrtDeg x1 = val_main_v11 (F := Ideal) x1 := rfl

/-! ## The degree weights are finite and nonnegative -/

/-- Node `v`'s self-loop is edge `3200000 + v`, whose target id is `v`: so `deg v ≥ 1` and `dinv v = (√deg v)⁻¹`, a
    nonnegative real. -/
theorem dinv_nonneg (x1 : Cert.KernelIdeal.S2x3200000.Idx → BitVec 32) (v : Fin 100000) :
    ∃ r : ℝ, 0 ≤ r ∧ invSqrtDeg x1 (ix1 v) = ((r : ℝ) : EReal) := by
  refine Cert.LibSelfLoopDegree.invSqrtDegree_nonneg (N := 100000) (E := 3300000)
    Cert.KernelIdeal.scatter_S100000_S3300000x1_S3300000_n_0_0_1.wf _ _ _
    (fun i => Cert.LibInvSqrtDegree.zero_word) (fun j => Cert.LibInvSqrtDegree.one_word) v
    ⟨⟨3200000 + v.val, by have := v.isLt; omega⟩, ?_⟩
  rw [Cert.LibSelfLoopIds.col_apply]
  exact Cert.LibSelfLoopIds.selfLoop_id (A := 3200000) (N := 100000) (E := 3300000) rfl (by norm_num)
    Cert.KernelIdeal.Facts₀.concatenates_S3200000_S100000_S3300000_d0 _ v

/-! ## The one stage where they differ -/

/-- The array before the last gather. Kernel: `dinv ⊙ segment_sum((h ⊙ dinv)[src]) + bias`; reference:
    `segment_sum(h[src] ⊙ (dinv[src] · dinv[dst])) + bias`. Equal by `LibGcnFold.fold_eq`: its hypotheses are that the
    weights are finite and nonnegative (`dinv_nonneg`), that the scatter starts from zero rows, that the region's array
    is `h` with row `v` scaled by `dinv v`, and that on an edge landing on `v` the edge weight is
    `dinv[src e] · dinv[v]` (both vector gathers read at the edge; the target id passes the wrap and the clamp). -/
theorem layer_eq (x0 : Cert.KernelIdeal.S100000x128.Idx → EReal) (x1 : Cert.KernelIdeal.S2x3200000.Idx → BitVec 32)
    (x2 : Cert.KernelIdeal.S128x64.Idx → EReal) (x3 : Cert.KernelIdeal.S64.Idx → EReal) :
    layer (scaledProduct x0 x2 (invSqrtDegCol x1)) (invSqrtDeg x1) (srcIds x1) (dstIds x1) x3
      = val_main_v43 (F := Ideal) x0 x1 x2 x3 := by
  unfold layer val_main_v43
  refine congrArg₂ (addf (F := Ideal)) ?_ rfl
  unfold val_main_v40 val_main_v37 val_main_v34 val_main_v36
  refine Cert.LibGcnFold.fold_eq (N := 100000) (E := 3300000) (C := 64) (by norm_num) _ _ _ _ _ ?hd _ _ _ ?hnrm _ ?hz _ _ ?hhs
  case hd =>
    intro v
    obtain ⟨r, hr0, hr⟩ := dinv_nonneg x1 v
    exact ⟨r, hr0, (Cert.LibSelfLoopIds.col_apply _ _ v).trans hr⟩
  case hz =>
    intro i
    exact Cert.LibInvSqrtDegree.zero_word
  case hhs =>
    intro v c
    -- the host's product at (v, c) is the same row-by-column sum
    have e : val_main_v27 (F := Ideal) x0 x2 (ix2 v c) = ∑ k : Fin 128, x0 (ix2 v k) * x2 (ix2 k c) := by
      rw [val_main_v27_apply]
      refine Finset.sum_congr rfl fun k _ => ?_
      have hl : lidx_main_v27 (ix2 v c) k = ix2 v k :=
        funext fun a => Fin.ext (by match a with | ⟨0, _⟩ => rfl | ⟨1, _⟩ => rfl)
      have hr : ridx_main_v27 (ix2 v c) k = ix2 k c :=
        funext fun a => Fin.ext (by match a with | ⟨0, _⟩ => rfl | ⟨1, _⟩ => rfl)
      rw [hl, hr]
    rw [scaledProduct_apply, e]
    refine congrArg (_ * ·) ?_
    -- the column the region reads and the column the host broadcasts are both `dinv` at v
    exact (Cert.LibKeepdims.shapeCast_a_a1_apply _ _ v (0 : Fin 1)).trans (Cert.LibSelfLoopIds.col_apply _ _ v).symm
  case hnrm =>
    intro e v hl
    -- the weight gathered at the edge's source
    have g1 : val_main_v18 (F := Ideal) x1 (ix1 e)
        = val_main_v11 (F := Ideal) x1 (ix1 (Cert.LibGraphHop.srcRow (N := 100000) (by norm_num) (val_main_v33 (F := Ideal) x1) e)) :=
      Cert.LibVecGather.vecGather_apply (N := 100000) (E := 3300000) (by norm_num)
        Cert.ReferenceIdeal.gather_S100000_S3300000x1_S3300000_n_0_n_n_0_1_1.wf (val_main_v11 (F := Ideal) x1)
        (val_main_v17 (F := Ideal) x1) e
    -- the weight gathered at the edge's target, which is v
    have g2 : val_main_v25 (F := Ideal) x1 (ix1 e) = val_main_v11 (F := Ideal) x1 (ix1 v) := by
      refine (Cert.LibVecGather.vecGather_apply (N := 100000) (E := 3300000) (by norm_num)
        Cert.ReferenceIdeal.gather_S100000_S3300000x1_S3300000_n_0_n_n_0_1_1.wf (val_main_v11 (F := Ideal) x1)
        (val_main_v24 (F := Ideal) x1) e).trans ?_
      refine congrArg (fun w : Fin 100000 => val_main_v11 (F := Ideal) x1 (ix1 w)) (Fin.ext ?_)
      exact Cert.LibSelfLoopIds.wrapped_clamped_of_lands (N := 100000) (E := 3300000)
        Cert.ReferenceIdeal.Facts₀.bcast_S_S3300000 Cert.ReferenceIdeal.Facts₀.bcast_S3300000_S3300000x1_0
        (val_main_v6 (F := Ideal) x1) 100000#32 e v hl
    -- the edge weight is the product of the two gathered weights
    have c35 : val_main_v35 (F := Ideal) x1 (ix2 e (0 : Fin 1))
        = val_main_v18 (F := Ideal) x1 (ix1 e) * val_main_v25 (F := Ideal) x1 (ix1 e) := by
      rw [val_main_v35_apply]
      have hi : idx_main_v35 (ix2 e (0 : Fin 1)) = ix1 e :=
        funext fun a => Fin.ext (by match a with | ⟨0, _⟩ => rfl)
      rw [hi, val_main_v26_apply]
      rfl
    rw [c35, g1, g2, Cert.LibSelfLoopIds.col_apply, Cert.LibSelfLoopIds.col_apply]
    rfl

/-! ## The results -/

/-- THE KERNEL PROGRAM'S RESULT IS THE REFERENCE'S, as functions of the five argument arrays: the last gather reads the
    same rows of equal arrays. -/
theorem result_eq (x0 : Cert.KernelIdeal.S100000x128.Idx → EReal) (x1 : Cert.KernelIdeal.S2x3200000.Idx → BitVec 32)
    (x2 : Cert.KernelIdeal.S128x64.Idx → EReal) (x3 : Cert.KernelIdeal.S64.Idx → EReal)
    (x4 : Cert.KernelIdeal.S8192x2.Idx → BitVec 32) :
    result x0 x1 x2 x3 x4 = val_main_v50 (F := Ideal) x0 x1 x2 x3 x4 := by
  unfold result pick val_main_v50
  rw [layer_eq]
  rfl

end Cert.Bridge

end
-- ==== Proof.lean ====
/-
A graph-convolution layer, `out = D^(-1/2) (A + I) D^(-1/2) (X W) + b` read at the rows a batch asks for, computed two ways.

The reference weighs every edge: with `h = X W`, `deg = segment_sum(1, dst)` over the edges with self-loops and
`dinv = deg^(-1/2)`, it forms `msgs[e] = h[src e] · (dinv[src e] · dinv[dst e])` and sums them by target node. The kernel
weighs the nodes instead: one region computes `hs = (X W) ⊙ dinv` tile by tile (ten row blocks of ten thousand rows; the
product accumulated into zero, each row scaled by its node's weight), and the host then sums `hs[src e]` by target node
and scales row `v` by `dinv v` once more. At the ideal values (floats are extended reals, a change of float format is
the identity) the two agree at every entry: an edge that lands on `v` has target id `v`, which the negative-index wrap
and the gather's clamp leave alone, so its weight is `dinv[src e] · dinv v`; every node has its self-loop, so
`deg v ≥ 1` and `dinv v` is a finite nonnegative real; and such a scalar distributes over a finite sum of extended
reals whatever the terms are. So the claim needs nothing of the features, weights or bias: the precondition (finite
inputs) is not used by the value claim.

The modules: `KernelBlock` (the body's one store at an entry), `KernelArray` (the ten blocks cover the region's output
array, which is one closed function of the arrays the region reads), `KernelRun` (the kernel program's run with its
result as one term of the arguments: the host lines before the region, the region, the host lines after it),
`Bridge` (that term is the reference's), over the general lemma files `Lib*`. The frames of the two kernel programs
are the generated ones; the reference's frame is its generated run with the result dropped; the idealization rewrote
no operation, so `preserves` is `True`.
-/
import proofs.«140885_j16801912062662_2_alg».proof.Defs
import proofs.«140885_j16801912062662_2_alg».proof.Proof.Gen.Kernel
import proofs.«140885_j16801912062662_2_alg».proof.Proof.Gen.Kernel.Skeleton
import proofs.«140885_j16801912062662_2_alg».proof.Proof.Gen.Kernel.Launch
import proofs.«140885_j16801912062662_2_alg».proof.Proof.Gen.Kernel.Points
import proofs.«140885_j16801912062662_2_alg».proof.Proof.Gen.Kernel.Frame
import proofs.«140885_j16801912062662_2_alg».proof.Proof.Gen.KernelIdeal
import proofs.«140885_j16801912062662_2_alg».proof.Proof.Gen.KernelIdeal.Skeleton
import proofs.«140885_j16801912062662_2_alg».proof.Proof.Gen.KernelIdeal.Launch
import proofs.«140885_j16801912062662_2_alg».proof.Proof.Gen.KernelIdeal.Points
import proofs.«140885_j16801912062662_2_alg».proof.Proof.Gen.KernelIdeal.Frame
import proofs.«140885_j16801912062662_2_alg».proof.Proof.Gen.ReferenceIdeal
import proofs.«140885_j16801912062662_2_alg».proof.Proof.Gen.Pre_finite_inputs
import proofs.«140885_j16801912062662_2_alg».proof.Proof.Gen.ReferenceIdeal.Run
import proofs.«140885_j16801912062662_2_alg».proof.Proof.Gen.ReferenceIdeal.Read
import proofs.«140885_j16801912062662_2_alg».proof.Proof.KernelRun
import proofs.«140885_j16801912062662_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories that agree on the five arguments, the kernel program ends with its result at
    `Run.result` of the arguments and the reference with its composed term of the same arguments: one function
    (`Bridge.result_eq`). -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
